-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3072 : Shape := ⟨2, ![4096, 3072]⟩
abbrev S32768x3072 : Shape := ⟨2, ![32768, 3072]⟩
abbrev S32768x1 : Shape := ⟨2, ![32768, 1]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S32768x3072 : S_.BroadcastsInDim S32768x3072 (![] : Fin 0 → Fin S32768x3072.rank)
  reducesTo_S32768x3072_S_d0_1 : S32768x3072.ReducesTo [0, 1] S_
  bcast_S_S32768x1 : S_.BroadcastsInDim S32768x1 (![] : Fin 0 → Fin S32768x1.rank)
  reducesTo_S32768x1_S_d0_1 : S32768x1.ReducesTo [0, 1] S_

variable [Facts]

def fn {F : FTy → Type} [FloatOps F] (main_arg0 : FVec F S4096x3072 .f32) (main_arg1 : FVec F S32768x3072 .f32) (main_arg2 : FVec F S32768x1 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S32768x3072 .f32 := Host.absf main_arg1
  let main_cst_0 : FVec F S_ .f32 := constant S_ .f32 0x7F800000#32
  let main_v5 : FVec F S32768x3072 .f32 := broadcastInDim S32768x3072 ![] bcast_S_S32768x3072 main_cst_0
  let main_v6 : IVec S32768x3072 1 := cmpf .olt main_v4 main_v5
  let main_c_1 : IVec S_ 1 := constantI S_ 1 1#1
  let main_v7 : IVec S_ 1 := (fun x v => Host.reduce IntOp.andi x v reducesTo_S32768x3072_S_d0_1 h_S_) main_v6 main_c_1
  let main_v8 : IVec S_ 1 := andi main_v3 main_v7
  let main_v9 : FVec F S32768x1 .f32 := Host.absf main_arg2
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  main_v13
-- ==== Kernel.lean ====
abbrev S4096x3072 : Shape := ⟨2, ![4096, 3072]⟩
abbrev S32768x3072 : Shape := ⟨2, ![32768, 3072]⟩
abbrev S32768x1 : Shape := ⟨2, ![32768, 1]⟩
abbrev S3072x4096 : Shape := ⟨2, ![3072, 4096]⟩
abbrev S2x1x2048 : Shape := ⟨3, ![2, 1, 2048]⟩
abbrev S3072x2048 : Shape := ⟨2, ![3072, 2048]⟩
abbrev S512x3072 : Shape := ⟨2, ![512, 3072]⟩
abbrev S512x1 : Shape := ⟨2, ![512, 1]⟩
abbrev S1x1x2048 : Shape := ⟨3, ![1, 1, 2048]⟩
abbrev S1x2048 : Shape := ⟨2, ![1, 2048]⟩
abbrev S2048 : Shape := ⟨1, ![2048]⟩
abbrev S512 : Shape := ⟨1, ![512]⟩
abbrev S512x2048 : Shape := ⟨2, ![512, 2048]⟩
abbrev S4096x1 : Shape := ⟨2, ![4096, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S32768x3072, .f32⟩
  | .hbm, ⟨2, _⟩ => ⟨S32768x1, .f32⟩
  | .hbm, ⟨3, _⟩ => ⟨S3072x4096, .f32⟩
  | .hbm, ⟨4, _⟩ => ⟨S3072x4096, .bf16⟩
  | .hbm, ⟨5, _⟩ => ⟨S2x1x2048, .f32⟩
  | .hbm, ⟨6, _⟩ => ⟨S4096x1, .f32⟩
  | .local _ .vmem, ⟨0, _⟩ => ⟨S3072x2048, .bf16⟩
  | .local _ .vmem, ⟨1, _⟩ => ⟨S3072x2048, .bf16⟩
  | .local _ .vmem, ⟨2, _⟩ => ⟨S512x3072, .f32⟩
  | .local _ .vmem, ⟨3, _⟩ => ⟨S512x3072, .f32⟩
  | .local _ .vmem, ⟨4, _⟩ => ⟨S512x1, .f32⟩
  | .local _ .vmem, ⟨5, _⟩ => ⟨S512x1, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3072x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4096x3072_S3072x4096_1_0 : S4096x3072.Transposes [1, 0] S3072x4096
  bitsLt_bf16_f32 : FTy.bits .bf16 < FTy.bits .f32
  inb_S3072x2048_S3072x2048_0_0 : ∀ a, (![0, 0] : Fin 2 → Nat) a + S3072x2048.size a ≤ S3072x2048.size a
  h_S3072x2048 : 0 < S3072x2048.numel
  shapeCasts_S3072x2048_S3072x2048 : S3072x2048.ShapeCasts S3072x2048
  reduces_S3072x2048_S2048 : S3072x2048.Reduces [0] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  inb_S512x3072_S512x3072_0_0 : ∀ a, (![0, 0] : Fin 2 → Nat) a + S512x3072.size a ≤ S512x3072.size a
  h_S512x3072 : 0 < S512x3072.numel
  reduces_S512x3072_S512 : S512x3072.Reduces [1] S512
  shapeCasts_S512_S512x1 : S512.ShapeCasts S512x1
  broadcasts_S512x1_S512x2048 : S512x1.Broadcasts S512x2048
  broadcasts_S1x2048_S512x2048 : S1x2048.Broadcasts S512x2048
  inb_S512x1_S512x1_0_0 : ∀ a, (![0, 0] : Fin 2 → Nat) a + S512x1.size a ≤ S512x1.size a
  h_S512x1 : 0 < S512x1.numel
  shapeCasts_S1x1x2048_S1x1x2048 : S1x1x2048.ShapeCasts S1x1x2048
  reduces_S512x2048_S2048 : S512x2048.Reduces [0] S2048
  shapeCasts_S1x2048_S1x1x2048 : S1x2048.ShapeCasts S1x1x2048
  shapeCasts_S2x1x2048_S4096x1 : S2x1x2048.ShapeCasts S4096x1
  dot_S512x3072_S3072x2048_S512x2048_1_0_0_1_n_n_wf : DotDims.WF S512x3072 S3072x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x2048.size a ≤ S3072x4096.size a
  hwx0_0 : ∀ i : grid0.Coords, EltTy.bits .bf16 = 32 ∨ (Rect.block (s := S3072x4096) S3072x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S32768x3072.size a
  hwx0_1 : ∀ i : grid0.Coords, EltTy.bits .f32 = 32 ∨ (Rect.block (s := S32768x3072) S512x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x2048.size a
  hwx0_3 : ∀ i : grid0.Coords, EltTy.bits .f32 = 32 ∨ (Rect.block (s := S2x1x2048) S1x1x2048.size (cc0_transform_3 i) (hinb0_3 i)).WholeWords (EltTy.packing .f32)

variable [Facts₀]

def dot_S512x3072_S3072x2048_S512x2048_1_0_0_1_n_n : DotDims S512x3072 S3072x2048 S512x2048 where
  lhsContracting := [1]
  rhsContracting := [0]
  lhsNonContracting := [0]
  rhsNonContracting := [1]
  lhsBatch := []
  rhsBatch := []
  wf := dot_S512x3072_S3072x2048_S512x2048_1_0_0_1_n_n_wf

abbrev win0_0 : Pipeline.Window sig grid0 :=
  Pipeline.Window.ofSpec (Memref.whole main_v1) S3072x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x3072 : Shape := ⟨2, ![4096, 3072]⟩
abbrev S32768x3072 : Shape := ⟨2, ![32768, 3072]⟩
abbrev S32768x1 : Shape := ⟨2, ![32768, 1]⟩
abbrev S_ : Shape := ⟨0, ![]⟩
abbrev S32768 : Shape := ⟨1, ![32768]⟩
abbrev S4096 : Shape := ⟨1, ![4096]⟩
abbrev S4096x1 : Shape := ⟨2, ![4096, 1]⟩
abbrev S1x4096 : Shape := ⟨2, ![1, 4096]⟩
abbrev S3072x4096 : Shape := ⟨2, ![3072, 4096]⟩
abbrev S32768x4096 : Shape := ⟨2, ![32768, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S32768x3072, .f32⟩
  | .hbm, ⟨2, _⟩ => ⟨S32768x1, .f32⟩
  | .hbm, ⟨3, _⟩ => ⟨S32768x3072, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S4096x3072, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S3072x4096, .f32⟩
  | .hbm, ⟨13, _⟩ => ⟨S32768x4096, .f32⟩
  | .hbm, ⟨14, _⟩ => ⟨S_, .f32⟩
  | .hbm, ⟨15, _⟩ => ⟨S32768x4096, .f32⟩
  | .hbm, ⟨16, _⟩ => ⟨S32768x4096, .f32⟩
  | .hbm, ⟨17, _⟩ => ⟨S32768x4096, .f32⟩
  | .hbm, ⟨18, _⟩ => ⟨S32768x4096, .f32⟩
  | .hbm, ⟨19, _⟩ => ⟨S32768x4096, .f32⟩
  | .hbm, ⟨20, _⟩ => ⟨S32768x4096, .f32⟩
  | .hbm, ⟨21, _⟩ => ⟨S32768x4096, .f32⟩
  | .hbm, ⟨22, _⟩ => ⟨S32768x4096, .f32⟩
  | .hbm, ⟨23, _⟩ => ⟨S_, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S32768x4096, .f32⟩
  | .hbm, ⟨28, _⟩ => ⟨S_, .f32⟩
  | .hbm, ⟨29, _⟩ => ⟨S4096, .f32⟩
  | .hbm, ⟨30, _⟩ => ⟨S4096x1, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S32768x3072_S32768_d1 : S32768x3072.ReducesTo [1] S32768
  h_S_ : 0 < S_.numel
  bcast_S32768_S32768x1_0 : S32768.BroadcastsInDim S32768x1 (![0] : Fin 1 → Fin S32768x1.rank)
  reducesTo_S4096x3072_S4096_d1 : S4096x3072.ReducesTo [1] S4096
  bcast_S4096_S4096x1_0 : S4096.BroadcastsInDim S4096x1 (![0] : Fin 1 → Fin S4096x1.rank)
  transposes_S4096x1_S1x4096_1_0 : S4096x1.Transposes [1, 0] S1x4096
  transposes_S4096x3072_S3072x4096_1_0 : S4096x3072.Transposes [1, 0] S3072x4096
  bcast_S_S32768x4096 : S_.BroadcastsInDim S32768x4096 (![] : Fin 0 → Fin S32768x4096.rank)
  bcast_S32768x1_S32768x4096_0_1 : S32768x1.BroadcastsInDim S32768x4096 (![0, 1] : Fin 2 → Fin S32768x4096.rank)
  bcast_S1x4096_S32768x4096_0_1 : S1x4096.BroadcastsInDim S32768x4096 (![0, 1] : Fin 2 → Fin S32768x4096.rank)
  reducesTo_S32768x4096_S4096_d0 : S32768x4096.ReducesTo [0] S4096
  dot_S32768x3072_S3072x4096_S32768x4096_1_0_0_1_n_n_wf : DotDims.WF S32768x3072 S3072x4096 S32768x4096 [1] [0] [0] [1] [] []

variable [Facts₀]

def dot_S32768x3072_S3072x4096_S32768x4096_1_0_0_1_n_n : DotDims S32768x3072 S3072x4096 S32768x4096 where
  lhsContracting := [1]
  rhsContracting := [0]
  lhsNonContracting := [0]
  rhsNonContracting := [1]
  lhsBatch := []
  rhsBatch := []
  wf := dot_S32768x3072_S3072x4096_S32768x4096_1_0_0_1_n_n_wf

class Facts : Prop extends Facts₀ where

variable [Facts]
-- ==== Proof.Pieces.lean ====
/-
  What the body leaves behind at a grid point, as values.  At the first stored-row block of a query-row block the
  body stores the column sums of squares into the scratch and -infinity into the output block, reads both back,
  and stores the maximum of -infinity and the block's largest score; at every other point it reads the scratch
  and the output block as the point before left them and stores the maximum of the old block and the block's
  largest score.  Each buffer ends covered by one store, so what it holds is that store's value, and a read of a
  buffer just covered by one store is that store's value.
-/
import proofs.«165458_g49898930045647_pilotgen1_419_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A (c : Dev nD) (i : grid0.Coords) (arg2 : Memref sig .tc .vmem S3072x2048 .bf16) (harg2 : arg2.IsWhole) (arg3 : Memref sig .tc .vmem S512x3072 .f32) (harg3 : arg3.IsWhole) (arg4 : Memref sig .tc .vmem S512x1 .f32) (harg4 : arg4.IsWhole) (arg5 : Memref sig .tc .vmem S1x1x2048 .f32) (harg5 : arg5.IsWhole) (arg6 : Memref sig .tc .vmem S1x2048 .f32) (harg6 : arg6.IsWhole) (hc0 : cond0_0 i)
    (x0 : Vec F S3072x2048 .bf16) (x1 : Vec F S512x3072 .f32) (x2 : Vec F S512x1 .f32) :
    sout0_A_0 c i arg2 harg2 arg3 harg3 arg4 harg4 arg5 harg5 arg6 harg6 hc0 x0 x1 x2 = k0_pay1 x0 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, View.ld_unit_zero (S := S3072x2048) hz2]

theorem out_A (c : Dev nD) (i : grid0.Coords) (arg2 : Memref sig .tc .vmem S3072x2048 .bf16) (harg2 : arg2.IsWhole) (arg3 : Memref sig .tc .vmem S512x3072 .f32) (harg3 : arg3.IsWhole) (arg4 : Memref sig .tc .vmem S512x1 .f32) (harg4 : arg4.IsWhole) (arg5 : Memref sig .tc .vmem S1x1x2048 .f32) (harg5 : arg5.IsWhole) (arg6 : Memref sig .tc .vmem S1x2048 .f32) (harg6 : arg6.IsWhole) (hc0 : cond0_0 i)
    (x0 : Vec F S3072x2048 .bf16) (x1 : Vec F S512x3072 .f32) (x2 : Vec F S512x1 .f32) :
    out0_A_3 c i arg2 harg2 arg3 harg3 arg4 harg4 arg5 harg5 arg6 harg6 hc0 x0 x1 x2 = k0_pay3 x1 x0 (k0_pay1 x0) x2 k0_pay2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x1x2048) hz3, View.readCov_unit_zero (S := S1x2048) _ hz2,
    View.readCov_unit_zero (S := S1x1x2048) _ hz3]
  simp only [View.readAt_eq_ld, harg2.read_unread, harg3.read_unread, harg4.read_unread,
    View.ld_unit_zero (S := S3072x2048) hz2, View.ld_unit_zero (S := S512x3072) hz2, View.ld_unit_zero (S := S512x1) hz2]

theorem out_B (c : Dev nD) (i : grid0.Coords) (arg2 : Memref sig .tc .vmem S3072x2048 .bf16) (harg2 : arg2.IsWhole) (arg3 : Memref sig .tc .vmem S512x3072 .f32) (harg3 : arg3.IsWhole) (arg4 : Memref sig .tc .vmem S512x1 .f32) (harg4 : arg4.IsWhole) (arg5 : Memref sig .tc .vmem S1x1x2048 .f32) (harg5 : arg5.IsWhole) (arg6 : Memref sig .tc .vmem S1x2048 .f32) (harg6 : arg6.IsWhole) (hc0 : ¬cond0_0 i)
    (x0 : Vec F S3072x2048 .bf16) (x1 : Vec F S512x3072 .f32) (x2 : Vec F S512x1 .f32) (xo3 : Vec F S1x1x2048 .f32) (xs0 : Vec F S1x2048 .f32) :
    out0_B_3 c i arg2 harg2 arg3 harg3 arg4 harg4 arg5 harg5 arg6 harg6 hc0 x0 x1 x2 xo3 xs0 = k0_pay3 x1 x0 xs0 x2 xo3 := by
  unfold out0_B_3
  rw [View.read_writes_eq_canon _ _ _ (cover0_B_3 c i arg2 harg2 arg3 harg3 arg4 harg4 arg5 harg5 arg6 harg6 hc0 x0 x1 x2 xo3 xs0)]
  unfold kernelRun0_B
  dsimp only
  rw [View.canon_unit_zero hz3]
  simp only [View.readAt_eq_ld, harg2.read_unread, harg3.read_unread, harg4.read_unread, harg5.read_unread, harg6.read_unread,
    View.ld_unit_zero (S := S3072x2048) hz2, View.ld_unit_zero (S := S512x3072) hz2, View.ld_unit_zero (S := S512x1) hz2,
    View.ld_unit_zero (S := S1x2048) hz2, View.ld_unit_zero (S := S1x1x2048) hz3]

end Cert.KernelIdeal.Pieces

end
-- ==== Proof.Spec.lean ====
/-
  The function both programs compute, on the extended reals.  With X the stored rows (32768 of them, 3072 features),
  Y the query rows (4096 of them) and W one bias per stored row,

      out p = max over n of ( W n - 10 * sqrt | (|X n|^2 + |Y p|^2) - 2 * <X n, Y p> | ).

  Arrays enter as functions of their coordinates, so that this module mentions no program.  The stored rows come
  in 64 blocks of 512 and the query rows in 2 blocks of 2048; the maximum over all stored rows is also written as
  a running maximum over the blocks, in block order, starting from the bottom element.
-/
import Idealize.ShloMosaic.PureOps.Ideal
import Idealize.ShloMosaic.Lib.ValueIdx

noncomputable section

namespace Cert.Spec

open Idealize.ShloMosaic Idealize.ShloMosaic.ValueIdx

/-- The float literals of the two programs, as extended reals: 2, 10, -10 and -infinity. -/
abbrev two : EReal := Ideal.ofBits .f32 0x40000000#32
abbrev ten : EReal := Ideal.ofBits .f32 0x41200000#32
abbrev negTen : EReal := Ideal.ofBits .f32 0xC1200000#32
abbrev negInf : EReal := Ideal.ofBits .f32 0xFF800000#32

/-- The absolute value as both programs take it: the larger of a number and its negation. -/
def absE (a : EReal) : EReal := max a (-a)

/-- The squared length of row `n`. -/
def sq {N : ℕ} (A : Fin N → Fin 3072 → EReal) (n : Fin N) : EReal := ∑ d : Fin 3072, A n d * A n d

/-- The inner product of stored row `n` and query row `p`. -/
def dot (X : Fin 32768 → Fin 3072 → EReal) (Y : Fin 4096 → Fin 3072 → EReal) (n : Fin 32768) (p : Fin 4096) : EReal :=
  ∑ d : Fin 3072, X n d * Y p d

/-- The score of stored row `n` against query row `p`, grouped as the kernel groups it. -/
def score (X : Fin 32768 → Fin 3072 → EReal) (Y : Fin 4096 → Fin 3072 → EReal) (W : Fin 32768 → EReal)
    (n : Fin 32768) (p : Fin 4096) : EReal :=
  W n - ten * Ideal.sqrt (absE ((sq X n + sq Y p) - two * dot X Y n p))

/-- The same score grouped as the reference groups it. -/
def scoreRef (X : Fin 32768 → Fin 3072 → EReal) (Y : Fin 4096 → Fin 3072 → EReal) (W : Fin 32768 → EReal)
    (n : Fin 32768) (p : Fin 4096) : EReal :=
  negTen * Ideal.sqrt (absE ((sq X n - two * dot X Y n p) + sq Y p)) + W n

/-- The result at query row `p`: the largest score over all stored rows. -/
def out (X : Fin 32768 → Fin 3072 → EReal) (Y : Fin 4096 → Fin 3072 → EReal) (W : Fin 32768 → EReal)
    (p : Fin 4096) : EReal :=
  Finset.univ.sup fun n : Fin 32768 => score X Y W n p

/-- Row `r` of the `j`-th block of 512 stored rows. -/
def rowOf (j : ℕ) (hj : j < 64) (r : Fin 512) : Fin 32768 := ⟨j * 512 + r.val, by have := r.isLt; omega⟩

/-- Row `q` of the `i`-th block of 2048 query rows. -/
def colOf (i : ℕ) (hi : i < 2) (q : Fin 2048) : Fin 4096 := ⟨i * 2048 + q.val, by have := q.isLt; omega⟩

/-- One block's score, from the block's own data: its 512 stored rows `x`, the 2048 query rows TRANSPOSED `yt`,
    their squared lengths `ysq`, and the 512 biases `w`. -/
def blkScore (x : Fin 512 → Fin 3072 → EReal) (yt : Fin 3072 → Fin 2048 → EReal) (ysq : Fin 2048 → EReal)
    (w : Fin 512 → EReal) (r : Fin 512) (q : Fin 2048) : EReal :=
  w r - ten * Ideal.sqrt (absE (((∑ d : Fin 3072, x r d * x r d) + ysq q) - two * ∑ d : Fin 3072, x r d * yt d q))

/-- The largest score within block `j` of the stored rows. -/
def blockMax (X : Fin 32768 → Fin 3072 → EReal) (Y : Fin 4096 → Fin 3072 → EReal) (W : Fin 32768 → EReal)
    (p : Fin 4096) (j : ℕ) (hj : j < 64) : EReal :=
  Finset.univ.sup fun r : Fin 512 => score X Y W (rowOf j hj r) p

/-- The running maximum after the first `k` blocks, in block order, from the bottom element. -/
def runMax (X : Fin 32768 → Fin 3072 → EReal) (Y : Fin 4096 → Fin 3072 → EReal) (W : Fin 32768 → EReal)
    (p : Fin 4096) : (k : ℕ) → k ≤ 64 → EReal
  | 0, _ => ⊥
  | k + 1, h => max (runMax X Y W p k (Nat.le_of_succ_le h)) (blockMax X Y W p k h)

/-- The result as an array over [4096, 1], from the three argument arrays. -/
def G (x0 : (⟨2, ![4096, 3072]⟩ : Shape).Idx → EReal) (x1 : (⟨2, ![32768, 3072]⟩ : Shape).Idx → EReal)
    (x2 : (⟨2, ![32768, 1]⟩ : Shape).Idx → EReal) : (⟨2, ![4096, 1]⟩ : Shape).Idx → EReal :=
  fun i => out (fun n d => x1 (ix2 n d)) (fun p d => x0 (ix2 p d)) (fun n => x2 (ix2 n 0)) ⟨(i 0).val, idx2_lt0 i⟩

end Cert.Spec

end
-- ==== Proof.SpecLaws.lean ====
/-
  The algebra that joins the two programs: the two groupings of a score agree on every extended real (only
  commutativity and associativity of addition and the sign rule of a product are used, so no finiteness is
  needed); a fold of max from -infinity is a supremum; and the running maximum over the 64 blocks is the maximum
  over all rows.
-/
import proofs.«165458_g49898930045647_pilotgen1_419_2_alg».proof.Proof.Spec

noncomputable section

namespace Cert.Spec

open Idealize.ShloMosaic Idealize.ShloMosaic.ValueIdx

/-- The word 0xFF800000 is the bottom of the extended reals. -/
theorem negInf_eq_bot : negInf = ⊥ := by
  show Ideal.ofBits .f32 0xFF800000#32 = ⊥
  simp [Ideal.ofBits, Ideal.ieee]

/-- A fold of `max` from -infinity is the supremum. -/
theorem fold_max_eq_sup {ι : Type} (s : Finset ι) (f : ι → EReal) : s.fold max negInf f = s.sup f := by
  rw [negInf_eq_bot]
  rfl

/-- The word 0xC1200000 is the negation of the word 0x41200000. -/
theorem negTen_eq : negTen = -ten := by
  have h10 : Ideal.ofBits .f32 0x41200000#32 = ((10 : ℝ) : EReal) := by
    simp [Ideal.ofBits, Ideal.ieee, -EReal.coe_mul]; norm_num
  have hm10 : Ideal.ofBits .f32 0xC1200000#32 = ((-10 : ℝ) : EReal) := by
    simp [Ideal.ofBits, Ideal.ieee, -EReal.coe_mul]; norm_num
  show Ideal.ofBits .f32 0xC1200000#32 = -Ideal.ofBits .f32 0x41200000#32
  rw [h10, hm10, EReal.coe_neg]

/-- The two groupings of a score are one number. -/
theorem scoreRef_eq (X : Fin 32768 → Fin 3072 → EReal) (Y : Fin 4096 → Fin 3072 → EReal) (W : Fin 32768 → EReal)
    (n : Fin 32768) (p : Fin 4096) : scoreRef X Y W n p = score X Y W n p := by
  have hgroup : ∀ a b c : EReal, (a - c) + b = (a + b) - c := by
    intro a b c
    rw [sub_eq_add_neg, sub_eq_add_neg, add_right_comm]
  unfold scoreRef score
  rw [hgroup, negTen_eq, neg_mul, add_comm]
  exact (sub_eq_add_neg _ _).symm

/-- The running maximum after `k` blocks is the maximum over the rows below `k * 512`. -/
private theorem runMax_eq (X : Fin 32768 → Fin 3072 → EReal) (Y : Fin 4096 → Fin 3072 → EReal) (W : Fin 32768 → EReal)
    (p : Fin 4096) : ∀ (k : ℕ) (h : k ≤ 64), runMax X Y W p k h
      = (Finset.univ.filter fun n : Fin 32768 => n.val < k * 512).sup (fun n => score X Y W n p) := by
  intro k
  induction k with
  | zero => intro h; simp [runMax]
  | succ k ih =>
    intro h
    have hk : k < 64 := h
    rw [runMax, ih]
    apply le_antisymm
    · apply max_le
      · apply Finset.sup_mono
        intro n hn
        simp only [Finset.mem_filter, Finset.mem_univ, true_and] at hn ⊢
        omega
      · unfold blockMax
        apply Finset.sup_le
        intro r _
        apply Finset.le_sup (f := fun n => score X Y W n p)
        simp only [Finset.mem_filter, Finset.mem_univ, true_and, rowOf]
        have := r.isLt
        omega
    · apply Finset.sup_le
      intro n hn
      simp only [Finset.mem_filter, Finset.mem_univ, true_and] at hn
      by_cases hlt : n.val < k * 512
      · apply le_max_of_le_left
        apply Finset.le_sup (f := fun n => score X Y W n p)
        simp only [Finset.mem_filter, Finset.mem_univ, true_and]
        exact hlt
      · apply le_max_of_le_right
        have hr : n.val - k * 512 < 512 := by omega
        have hn' : n = rowOf k hk ⟨n.val - k * 512, hr⟩ := by
          apply Fin.ext
          simp only [rowOf]
          omega
        calc score X Y W n p
            = score X Y W (rowOf k hk ⟨n.val - k * 512, hr⟩) p := congrArg (fun m => score X Y W m p) hn'
          _ ≤ blockMax X Y W p k hk :=
              Finset.le_sup (f := fun r => score X Y W (rowOf k hk r) p) (Finset.mem_univ _)

/-- The running maximum after all 64 blocks is the maximum over all rows. -/
theorem runMax_full (X : Fin 32768 → Fin 3072 → EReal) (Y : Fin 4096 → Fin 3072 → EReal) (W : Fin 32768 → EReal)
    (p : Fin 4096) : runMax X Y W p 64 le_rfl = out X Y W p := by
  rw [runMax_eq, Finset.filter_true_of_mem (fun n _ => by have := n.isLt; omega)]
  rfl

/-- A block's score from the block's own data is the score of the rows it holds. -/
theorem blkScore_eq (X : Fin 32768 → Fin 3072 → EReal) (Y : Fin 4096 → Fin 3072 → EReal) (W : Fin 32768 → EReal)
    (i j : ℕ) (hi : i < 2) (hj : j < 64) (r : Fin 512) (q : Fin 2048) :
    blkScore (fun r d => X (rowOf j hj r) d) (fun d q => Y (colOf i hi q) d) (fun q => sq Y (colOf i hi q))
      (fun r => W (rowOf j hj r)) r q = score X Y W (rowOf j hj r) (colOf i hi q) := by
  rfl

end Cert.Spec

end
-- ==== Proof.PayloadAt.lean ====
/-
  The kernel body's three stored values, read at an index on the extended reals: the column sums of squares of the
  transposed query block, the fill with -infinity, and the running maximum joined with the block's largest score.
-/
import proofs.«165458_g49898930045647_pilotgen1_419_2_alg».proof.Proof.Gen.KernelIdeal.Skeleton
import proofs.«165458_g49898930045647_pilotgen1_419_2_alg».proof.Proof.SpecLaws
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The source index over column q of the transposed block with the feature coordinate d inserted. -/
private theorem lift_rows (h : S3072x2048.Reduces [0] S2048) (q : Fin 2048) (d : Fin 3072) :
    h.lift (ix1 q) d = ix2 d q :=
  funext fun a => Fin.ext (by
    match a with
    | ⟨0, _⟩ => rfl
    | ⟨1, _⟩ => rfl)

/-- The source index over column q with the stored-row coordinate r inserted. -/
private theorem lift_rows512 (h : S512x2048.Reduces [0] S2048) (q : Fin 2048) (r : Fin 512) :
    h.lift (ix1 q) r = ix2 r q :=
  funext fun a => Fin.ext (by
    match a with
    | ⟨0, _⟩ => rfl
    | ⟨1, _⟩ => rfl)

/-- The source index over row r with the feature coordinate d inserted. -/
private theorem lift_cols (h : S512x3072.Reduces [1] S512) (r : Fin 512) (d : Fin 3072) :
    h.lift (ix1 r) d = ix2 r d :=
  funext fun a => Fin.ext (by
    match a with
    | ⟨0, _⟩ => rfl
    | ⟨1, _⟩ => rfl)

/-- An [a] array cast to [a, 1] reads, at (i, u), the operand at i, whatever the unit coordinate u. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the product: its row is the output's row … -/
private theorem lhs_row (i : S512x2048.Idx) (k : (dot_S512x3072_S3072x2048_S512x2048_1_0_0_1_n_n).contr.Idx) :
    ((dot_S512x3072_S3072x2048_S512x2048_1_0_0_1_n_n).lhsIdx i k 0).val = (i 0).val := by
  unfold DotDims.lhsIdx
  rw [dif_neg (show ¬(0 : Fin S512x3072.rank) ∈ (dot_S512x3072_S3072x2048_S512x2048_1_0_0_1_n_n).lhsBatch by decide), dif_pos (show (0 : Fin S512x3072.rank) ∈ (dot_S512x3072_S3072x2048_S512x2048_1_0_0_1_n_n).lhsNonContracting by decide)]
  rfl

/-- … and the right operand's column is the output's column. -/
private theorem rhs_col (i : S512x2048.Idx) (k : (dot_S512x3072_S3072x2048_S512x2048_1_0_0_1_n_n).contr.Idx) :
    ((dot_S512x3072_S3072x2048_S512x2048_1_0_0_1_n_n).rhsIdx i k 1).val = (i 1).val := by
  unfold DotDims.rhsIdx
  rw [dif_neg (show ¬(1 : Fin S3072x2048.rank) ∈ (dot_S512x3072_S3072x2048_S512x2048_1_0_0_1_n_n).rhsBatch by decide), dif_pos (show (1 : Fin S3072x2048.rank) ∈ (dot_S512x3072_S3072x2048_S512x2048_1_0_0_1_n_n).rhsNonContracting by decide)]
  rfl

/-- The product of the block of stored rows with the transposed query block, into zero: at (p, q) the sum over the
    features of the products. -/
private theorem matmul_at (l : FVec Ideal S512x3072 .bf16) (r : FVec Ideal S3072x2048 .bf16) (p : Fin 512) (q : Fin 2048) :
    matmul dot_S512x3072_S3072x2048_S512x2048_1_0_0_1_n_n none l r (constant (F := Ideal) S512x2048 .f32 0x00000000#32) (ix2 p q)
      = ∑ d : Fin 3072, l (ix2 p d) * r (ix2 d q) := by
  simp only [matmul]
  rw [Ideal.matmul_constant_zero_apply, ← Equiv.sum_comp (contrEquiv1 dot_S512x3072_S3072x2048_S512x2048_1_0_0_1_n_n 3072 rfl rfl).symm]
  refine Finset.sum_congr rfl fun k _ => ?_
  have hk := contrEquiv1_symm_val dot_S512x3072_S3072x2048_S512x2048_1_0_0_1_n_n 3072 rfl rfl k
  have el : (dot_S512x3072_S3072x2048_S512x2048_1_0_0_1_n_n).lhsIdx (ix2 p q) ((contrEquiv1 dot_S512x3072_S3072x2048_S512x2048_1_0_0_1_n_n 3072 rfl rfl).symm k) = ix2 p k := funext fun a => Fin.ext (by
    match a with
    | ⟨0, _⟩ => exact lhs_row _ _
    | ⟨1, _⟩ => exact ((dot_S512x3072_S3072x2048_S512x2048_1_0_0_1_n_n).lhsIdx_val_of_single rfl _ _).trans hk)
  have er : (dot_S512x3072_S3072x2048_S512x2048_1_0_0_1_n_n).rhsIdx (ix2 p q) ((contrEquiv1 dot_S512x3072_S3072x2048_S512x2048_1_0_0_1_n_n 3072 rfl rfl).symm k) = ix2 k q := funext fun a => Fin.ext (by
    match a with
    | ⟨0, _⟩ => exact ((dot_S512x3072_S3072x2048_S512x2048_1_0_0_1_n_n).rhsIdx_val_of_single rfl _ _).trans hk
    | ⟨1, _⟩ => exact rhs_col _ _)
  rw [el, er]

/-- A function of the block's indices composed with that insertion reads the block at (r, q). -/
private theorem comp_lift_rows512 {α : Type} (f : S512x2048.Idx → α) (h : S512x2048.Reduces [0] S2048) (q : Fin 2048)
    (r : Fin 512) : (f ∘ h.lift (ix1 q)) r = f (ix2 r q) :=
  congrArg f (lift_rows512 h q r)

/-- The scratch's value: at column q, the sum over the 3072 features of the squared entries of the transposed block. -/
theorem pay1_apply (v32 : FVec Ideal S3072x2048 .bf16) (q : Fin 2048) :
    k0_pay1 (F := Ideal) v32 (ix2 0 q) = ∑ d : Fin 3072, v32 (ix2 d q) * v32 (ix2 d q) := by
  unfold k0_pay1
  simp only [shapeCast_self]
  refine (shapeCast_a_1a_apply _ _ 0 q).trans ?_
  refine (Ideal.multiReduction_add_single _ _ _ _ _ (ix1 q)).trans ?_
  refine Finset.sum_congr rfl fun (d : Fin 3072) _ => ?_
  exact congrArg (fun i => v32 i * v32 i) (lift_rows _ q d)

/-- The fill: every entry is the bottom element. -/
theorem pay2_apply (y : S1x1x2048.Idx) : k0_pay2 (F := Ideal) y = ⊥ :=
  Cert.Spec.negInf_eq_bot

/-- The output's value: at column q, the larger of what the buffer held and the block's largest score. -/
theorem pay3_apply (v3 : FVec Ideal S512x3072 .f32) (v8 : FVec Ideal S3072x2048 .bf16) (v11 : FVec Ideal S1x2048 .f32)
    (v18 : FVec Ideal S512x1 .f32) (v25 : FVec Ideal S1x1x2048 .f32) (q : Fin 2048) :
    k0_pay3 (F := Ideal) v3 v8 v11 v18 v25 (ix3 0 0 q)
      = max (v25 (ix3 0 0 q)) (Finset.univ.sup fun r : Fin 512 =>
          Cert.Spec.blkScore (fun r d => v3 (ix2 r d)) (fun d q => v8 (ix2 d q)) (fun q => v11 (ix2 0 q)) (fun r => v18 (ix2 r 0)) r q) := by
  unfold k0_pay3
  simp only [shapeCast_self]
  rw [maximumf_apply]
  refine congrArg (max (v25 (ix3 0 0 q))) ?_
  -- the two added unit axes, then the maximum over the 512 stored rows as a supremum
  refine (shapeCast_ab_1ab_apply _ _ 0 0 q).trans ?_
  refine (shapeCast_a_1a_apply _ _ 0 q).trans ?_
  refine (Ideal.multiReduction_maximumf_single _ _ _ _ _ (ix1 q)).trans ?_
  refine (Cert.Spec.fold_max_eq_sup _ _).trans ?_
  refine Finset.sup_congr rfl fun (r : Fin 512) _ => ?_
  refine (comp_lift_rows512 _ _ q r).trans ?_
  -- the score at (r, q), factor by factor
  unfold Cert.Spec.blkScore
  refine congrArg₂ (· - ·) (broadcastTo_a1_ab_apply _ _ r q) ?_
  refine congrArg (Cert.Spec.ten * ·) ?_
  refine congrArg Ideal.sqrt ?_
  refine congrArg Cert.Spec.absE ?_
  refine congrArg₂ (· - ·) (congrArg₂ (· + ·) ?_ (broadcastTo_1b_ab_apply _ _ r q)) (congrArg (Cert.Spec.two * ·) ?_)
  · -- the squared length of stored row r
    refine (broadcastTo_a1_ab_apply _ _ r q).trans ?_
    refine (shapeCast_a_a1_apply _ _ r 0).trans ?_
    refine (Ideal.multiReduction_add_single _ _ _ _ _ (ix1 r)).trans ?_
    refine Finset.sum_congr rfl fun (d : Fin 3072) _ => ?_
    exact congrArg (fun i => v3 i * v3 i) (lift_cols _ r d)
  · -- the inner product of stored row r with query row q
    exact matmul_at _ _ r q

end Cert.KernelIdeal.Payload

end
-- ==== Proof.BlockRead.lean ====
/-
  What each input window's block holds at a grid point, entry by entry, in terms of the three argument arrays.
  Point t = i * 64 + j works on query-row block i and stored-row block j.  The first window's array is the
  transpose of the query rows (written by the two host operations before the region; the change of float format
  is the identity on the extended reals), the other two are arguments as launched.
-/
import proofs.«165458_g49898930045647_pilotgen1_419_2_alg».proof.Proof.Gen.KernelIdeal.Frame
import proofs.«165458_g49898930045647_pilotgen1_419_2_alg».proof.Proof.Spec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 0's index map at grid point t is (0, t / 64). -/
private theorem idx0 : ∀ t : Fin cfg0.N, win0_0.index t (0 : Fin 2) = 0 ∧ win0_0.index t (1 : Fin 2) = t.val / 64 :=
  (by decide +kernel : ∀ t : Fin grid0.N, _)

/-- Window 1's index map at grid point t is (t % 64, 0). -/
private theorem idx1 : ∀ t : Fin cfg0.N, win0_1.index t (0 : Fin 2) = t.val % 64 ∧ win0_1.index t (1 : Fin 2) = 0 :=
  (by decide +kernel : ∀ t : Fin grid0.N, _)

/-- Window 2's index map at grid point t is (t % 64, 0). -/
private theorem idx2 : ∀ t : Fin cfg0.N, win0_2.index t (0 : Fin 2) = t.val % 64 ∧ win0_2.index t (1 : Fin 2) = 0 :=
  (by decide +kernel : ∀ t : Fin grid0.N, _)

/-- The array the first window reads is the transpose of the query rows, its float format changed (the identity
    on the extended reals). -/
private theorem V_main_v1 (c : Dev nD) :
    V m c main_v1 = (truncf (F := Ideal) .bf16 (transpose S3072x4096 [1, 0] (m ((c : Thread nD τ).loc main_arg0)) transposes_S4096x3072_S3072x4096_1_0 : FVec Ideal S3072x4096 .f32) bitsLt_bf16_f32 : FVec Ideal S3072x4096 .bf16) := by
  show StableHlo.after hostOps0 (fun b => m (c, b)) (Proc.devRef .tc main_v1) = _
  after_results

/-- Window 0 (the transposed query rows, a [3072, 2048] block): entry (d, q) is feature d of query row i * 2048 + q. -/
theorem iblk0_apply (c : Dev nD) (t : Fin cfg0.N) (i j : ℕ) (hi : i < 2) (hj : j < 64) (ht : t.val = i * 64 + j)
    (d : Fin 3072) (q : Fin 2048) :
    (iblk m c 0 t : Vec Ideal S3072x2048 .bf16) (ix2 d q)
      = m ((c : Thread nD τ).loc main_arg0) (ix2 (Cert.Spec.colOf i hi q) d) := by
  -- entry (d, q) of the block is entry (0 * 3072 + d, (t / 64) * 2048 + q) of the transposed array, and t / 64 = i
  have hi0 := idx0 t
  unfold iblk
  rw [View.read_apply]
  show (V m c main_v1 : S3072x4096.Idx → EReal) _ = m (c.tc.loc main_arg0) _
  rw [V_main_v1, truncf_apply]
  refine transpose_apply [1, 0] _ transposes_S4096x3072_S3072x4096_1_0 _ _ (fun b => ?_)
  match b with
  | ⟨0, _⟩ => show d.val = win0_0.index t 0 * 3072 + 1 * d.val; rw [hi0.1]; omega
  | ⟨1, _⟩ => show i * 2048 + q.val = win0_0.index t 1 * 2048 + 1 * q.val; rw [hi0.2]; omega

/-- Window 1 (the stored rows, a [512, 3072] block): entry (r, d) is feature d of stored row j * 512 + r. -/
theorem iblk1_apply (c : Dev nD) (t : Fin cfg0.N) (i j : ℕ) (hi : i < 2) (hj : j < 64) (ht : t.val = i * 64 + j)
    (r : Fin 512) (d : Fin 3072) :
    (iblk m c 1 t : Vec Ideal S512x3072 .f32) (ix2 r d)
      = m ((c : Thread nD τ).loc main_arg1) (ix2 (Cert.Spec.rowOf j hj r) d) := by
  -- entry (r, d) of the block is entry ((t % 64) * 512 + r, 0 * 3072 + d) of the array, and t % 64 = j
  have hi1 := idx1 t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = j * 512 + r.val; rw [hi1.1]; omega
  | ⟨1, _⟩ => show win0_1.index t 1 * 3072 + 1 * d.val = d.val; rw [hi1.2]; omega

/-- Window 2 (the biases, a [512, 1] block): entry (r, 0) is the bias of stored row j * 512 + r. -/
theorem iblk2_apply (c : Dev nD) (t : Fin cfg0.N) (i j : ℕ) (hi : i < 2) (hj : j < 64) (ht : t.val = i * 64 + j)
    (r : Fin 512) :
    (iblk m c 2 t : Vec Ideal S512x1 .f32) (ix2 r 0)
      = m ((c : Thread nD τ).loc main_arg2) (ix2 (Cert.Spec.rowOf j hj r) 0) := by
  -- entry (r, 0) of the block is entry ((t % 64) * 512 + r, 0) of the array, and t % 64 = j
  have hi2 := idx2 t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = j * 512 + r.val; rw [hi2.1]; omega
  | ⟨1, _⟩ => show win0_2.index t 1 * 1 + 1 * 0 = 0; rw [hi2.2]

end Cert.KernelIdeal.Blocks

end
-- ==== Proof.Invariant.lean ====
/-
  What the kernel's two carried buffers hold after each grid point.  Point i * 64 + j works on query-row block i
  and stored-row block j.  After it, entry q of the scratch is the squared length of query row i * 2048 + q, and
  entry q of the output block is the running maximum, over the stored-row blocks 0 .. j, of the scores against
  that query row.  By induction on the point: a point with j = 0 starts both buffers afresh, any other point
  keeps the scratch and joins its block's largest score to what the point before left.
-/
import proofs.«165458_g49898930045647_pilotgen1_419_2_alg».proof.Proof.Pieces
import proofs.«165458_g49898930045647_pilotgen1_419_2_alg».proof.Proof.PayloadAt
import proofs.«165458_g49898930045647_pilotgen1_419_2_alg».proof.Proof.BlockRead
import proofs.«165458_g49898930045647_pilotgen1_419_2_alg».proof.Proof.SpecLaws

noncomputable section

namespace Cert.KernelIdeal.Inv

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The three argument arrays of core `c`, by coordinates: stored rows, query rows, biases. -/
abbrev X (c : Dev nD) : Fin 32768 → Fin 3072 → EReal := fun n d => m ((c : Thread nD τ).loc main_arg1) (ix2 n d)
abbrev Y (c : Dev nD) : Fin 4096 → Fin 3072 → EReal := fun p d => m ((c : Thread nD τ).loc main_arg0) (ix2 p d)
abbrev Wt (c : Dev nD) : Fin 32768 → EReal := fun n => m ((c : Thread nD τ).loc main_arg2) (ix2 n 0)

/-- The scratch's value from a transposed query block: the squared lengths of its query rows. -/
theorem pay1_col (x0 : Vec Ideal S3072x2048 .bf16) (Yf : Fin 4096 → Fin 3072 → EReal) (i : ℕ) (hi : i < 2)
    (h0 : ∀ (d : Fin 3072) (q : Fin 2048), x0 (ix2 d q) = Yf (Cert.Spec.colOf i hi q) d) (q : Fin 2048) :
    k0_pay1 (F := Ideal) x0 (ix2 0 q) = Cert.Spec.sq Yf (Cert.Spec.colOf i hi q) := by
  rw [Cert.KernelIdeal.Payload.pay1_apply]
  unfold Cert.Spec.sq
  exact Finset.sum_congr rfl fun d _ => by rw [h0 d q]

/-- The output's value from the blocks of a point: the old entry joined with the largest score of the point's
    stored-row block against the query row. -/
theorem pay3_block (x1 : Vec Ideal S512x3072 .f32) (x0 : Vec Ideal S3072x2048 .bf16) (xs : Vec Ideal S1x2048 .f32)
    (x2 : Vec Ideal S512x1 .f32) (xo : Vec Ideal S1x1x2048 .f32)
    (Xf : Fin 32768 → Fin 3072 → EReal) (Yf : Fin 4096 → Fin 3072 → EReal) (Wf : Fin 32768 → EReal)
    (i j : ℕ) (hi : i < 2) (hj : j < 64)
    (h0 : ∀ (d : Fin 3072) (q : Fin 2048), x0 (ix2 d q) = Yf (Cert.Spec.colOf i hi q) d)
    (h1 : ∀ (r : Fin 512) (d : Fin 3072), x1 (ix2 r d) = Xf (Cert.Spec.rowOf j hj r) d)
    (h2 : ∀ r : Fin 512, x2 (ix2 r 0) = Wf (Cert.Spec.rowOf j hj r))
    (hs : ∀ q : Fin 2048, xs (ix2 0 q) = Cert.Spec.sq Yf (Cert.Spec.colOf i hi q)) (q : Fin 2048) :
    k0_pay3 (F := Ideal) x1 x0 xs x2 xo (ix3 0 0 q)
      = max (xo (ix3 0 0 q)) (Cert.Spec.blockMax Xf Yf Wf (Cert.Spec.colOf i hi q) j hj) := by
  rw [Cert.KernelIdeal.Payload.pay3_apply]
  have e1 : (fun (r : Fin 512) (d : Fin 3072) => x1 (ix2 r d)) = fun r d => Xf (Cert.Spec.rowOf j hj r) d :=
    funext fun r => funext fun d => h1 r d
  have e0 : (fun (d : Fin 3072) (q : Fin 2048) => x0 (ix2 d q)) = fun d q => Yf (Cert.Spec.colOf i hi q) d :=
    funext fun d => funext fun q => h0 d q
  have es : (fun q : Fin 2048 => xs (ix2 0 q)) = fun q => Cert.Spec.sq Yf (Cert.Spec.colOf i hi q) := funext hs
  have e2 : (fun r : Fin 512 => x2 (ix2 r 0)) = fun r => Wf (Cert.Spec.rowOf j hj r) := funext h2
  rw [e1, e0, es, e2]
  unfold Cert.Spec.blockMax
  exact congrArg (max (xo (ix3 0 0 q))) (Finset.sup_congr rfl fun r _ => Cert.Spec.blkScore_eq Xf Yf Wf i j hi hj r q)

/-- A point that starts a query-row block (j = 0). -/
theorem pointA (c : Dev nD) (t : Fin cfg0.N) (h0 : t.val % 64 = 0) (i : ℕ) (hi : i < 2) (ht : t.val = i * 64 + 0)
    (q : Fin 2048) :
    (outsAt0 m c t.val t.isLt).2 (ix2 0 q) = Cert.Spec.sq (Y m c) (Cert.Spec.colOf i hi q)
    ∧ (outsAt0 m c t.val t.isLt).1 (ix3 0 0 q)
        = Cert.Spec.runMax (X m c) (Y m c) (Wt m c) (Cert.Spec.colOf i hi q) 1 (by omega) := by
  have hj : (0 : ℕ) < 64 := by omega
  have b0 := fun (d : Fin 3072) (q : Fin 2048) => Cert.KernelIdeal.Blocks.iblk0_apply m c t i 0 hi hj ht d q
  have b1 := fun (r : Fin 512) (d : Fin 3072) => Cert.KernelIdeal.Blocks.iblk1_apply m c t i 0 hi hj ht r d
  have b2 := fun (r : Fin 512) => Cert.KernelIdeal.Blocks.iblk2_apply m c t i 0 hi hj ht r
  have hs : ∀ q : Fin 2048, k0_pay1 (F := Ideal) (iblk m c 0 t) (ix2 0 q) = Cert.Spec.sq (Y m c) (Cert.Spec.colOf i hi q) :=
    fun q => pay1_col (iblk m c 0 t) (Y m c) i hi b0 q
  rw [outsAt0_A m c t h0]
  dsimp only
  rw [Cert.KernelIdeal.Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t),
    Cert.KernelIdeal.Pieces.out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
  refine ⟨hs q, ?_⟩
  refine (pay3_block (iblk m c 1 t) (iblk m c 0 t) (k0_pay1 (F := Ideal) (iblk m c 0 t)) (iblk m c 2 t) (k0_pay2 (F := Ideal))
    (X m c) (Y m c) (Wt m c) i 0 hi hj b0 b1 b2 hs q).trans ?_
  rw [Cert.KernelIdeal.Payload.pay2_apply]
  rfl

/-- Any other point (j + 1), from what the point before left. -/
theorem pointB (c : Dev nD) (n : ℕ) (hn : n + 1 < cfg0.N) (h0 : ¬(n + 1) % 64 = 0) (i j : ℕ) (hi : i < 2) (hj : j < 64)
    (hj1 : j + 1 < 64) (ht : n + 1 = i * 64 + (j + 1))
    (ih : ∀ q : Fin 2048,
      (outsAt0 m c n (Nat.lt_of_succ_lt hn)).2 (ix2 0 q) = Cert.Spec.sq (Y m c) (Cert.Spec.colOf i hi q)
      ∧ (outsAt0 m c n (Nat.lt_of_succ_lt hn)).1 (ix3 0 0 q)
          = Cert.Spec.runMax (X m c) (Y m c) (Wt m c) (Cert.Spec.colOf i hi q) (j + 1) hj) (q : Fin 2048) :
    (outsAt0 m c (n + 1) hn).2 (ix2 0 q) = Cert.Spec.sq (Y m c) (Cert.Spec.colOf i hi q)
    ∧ (outsAt0 m c (n + 1) hn).1 (ix3 0 0 q)
        = Cert.Spec.runMax (X m c) (Y m c) (Wt m c) (Cert.Spec.colOf i hi q) (j + 1 + 1) hj1 := by
  have b0 := fun (d : Fin 3072) (q : Fin 2048) => Cert.KernelIdeal.Blocks.iblk0_apply m c (⟨n + 1, hn⟩ : Fin cfg0.N) i (j + 1) hi hj1 ht d q
  have b1 := fun (r : Fin 512) (d : Fin 3072) => Cert.KernelIdeal.Blocks.iblk1_apply m c (⟨n + 1, hn⟩ : Fin cfg0.N) i (j + 1) hi hj1 ht r d
  have b2 := fun (r : Fin 512) => Cert.KernelIdeal.Blocks.iblk2_apply m c (⟨n + 1, hn⟩ : Fin cfg0.N) i (j + 1) hi hj1 ht r
  have e : outsAt0 m c (n + 1) hn
      = (out0_B_3 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) (fun h => h0 ((hcond0_0 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N))
          (outsAt0 m c n (Nat.lt_of_succ_lt hn)).1 (outsAt0 m c n (Nat.lt_of_succ_lt hn)).2,
         (outsAt0 m c n (Nat.lt_of_succ_lt hn)).2) :=
    outsAt0_B m c (⟨n + 1, hn⟩ : Fin cfg0.N) h0
  rw [e]
  dsimp only
  refine ⟨(ih q).1, ?_⟩
  rw [Cert.KernelIdeal.Pieces.out_B (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) (fun h => h0 ((hcond0_0 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N))
      (outsAt0 m c n (Nat.lt_of_succ_lt hn)).1 (outsAt0 m c n (Nat.lt_of_succ_lt hn)).2,
    pay3_block (iblk m c 1 (⟨n + 1, hn⟩ : Fin cfg0.N)) (iblk m c 0 (⟨n + 1, hn⟩ : Fin cfg0.N)) (outsAt0 m c n (Nat.lt_of_succ_lt hn)).2 (iblk m c 2 (⟨n + 1, hn⟩ : Fin cfg0.N))
      (outsAt0 m c n (Nat.lt_of_succ_lt hn)).1 (X m c) (Y m c) (Wt m c) i (j + 1) hi hj1 b0 b1 b2 (fun q => (ih q).1) q,
    (ih q).2]
  rfl

/-- THE INVARIANT, at every point. -/
theorem inv (c : Dev nD) : ∀ (n : ℕ) (hn : n < cfg0.N) (i j : ℕ) (hi : i < 2) (hj : j < 64) (ht : n = i * 64 + j) (q : Fin 2048),
    (outsAt0 m c n hn).2 (ix2 0 q) = Cert.Spec.sq (Y m c) (Cert.Spec.colOf i hi q)
    ∧ (outsAt0 m c n hn).1 (ix3 0 0 q)
        = Cert.Spec.runMax (X m c) (Y m c) (Wt m c) (Cert.Spec.colOf i hi q) (j + 1) hj := by
  intro n
  induction n with
  | zero =>
    intro hn i j hi hj ht q
    obtain ⟨rfl, rfl⟩ : i = 0 ∧ j = 0 := by omega
    exact pointA m c ⟨0, hn⟩ (Nat.zero_mod _) 0 hi rfl q
  | succ n ih =>
    intro hn i j hi hj ht q
    by_cases h0 : (n + 1) % 64 = 0
    · have hj0 : j = 0 := by omega
      subst hj0
      exact pointA m c ⟨n + 1, hn⟩ h0 i hi ht q
    · obtain ⟨j', rfl⟩ : ∃ j', j = j' + 1 := ⟨j - 1, by omega⟩
      have hj' : j' < 64 := by omega
      exact pointB m c n hn h0 i j' hi hj' hj ht
        (fun q => ih (Nat.lt_of_succ_lt hn) i j' hi hj' (by omega) q) q

end Cert.KernelIdeal.Inv

end
-- ==== Proof.Final.lean ====
/-
  The region's result array after the run.  The output window's block for query-row block i is written back once,
  after the last stored-row block (point i * 64 + 63), when it holds the running maximum over all 64 blocks, which
  is the maximum over all stored rows.  The two blocks tile the [2, 1, 2048] array, so the array ends holding, at
  (i, 0, q), the result at query row i * 2048 + q.
-/
import proofs.«165458_g49898930045647_pilotgen1_419_2_alg».proof.Proof.Invariant
import Idealize.ShloMosaic.Lib.Pipeline.Value

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The region's result array: at (i, 0, q) the result at query row i * 2048 + q. -/
def R (c : Dev nD) : S2x1x2048.Idx → EReal := fun y =>
  Cert.Spec.out (Cert.KernelIdeal.Inv.X m c) (Cert.KernelIdeal.Inv.Y m c) (Cert.KernelIdeal.Inv.Wt m c)
    ⟨(y 0).val * 2048 + (y 2).val, by
      have h0 : (y 0).val < 2 := (y 0).isLt
      have h2 : (y 2).val < 2048 := (y 2).isLt
      omega⟩

/-- The output window's index map at every point: block (t / 64, 0, 0). -/
private theorem idx_facts3 : ∀ t : Fin cfg0.N, win0_3.index t (0 : Fin 3) = t.val / 64 ∧ win0_3.index t (1 : Fin 3) = 0
    ∧ win0_3.index t (2 : Fin 3) = 0 :=
  (by decide +kernel : ∀ t : Fin grid0.N, _)

/-- A staging buffer whose entry (0, 0, q) is the array's entry (i, 0, q), cut to the block of a point with block
    index (i, 0, 0), is that block of the array. -/
private theorem cut_eq_read (t : Fin cfg0.N) (i : ℕ) (hi : i < 2) (hidx : win0_3.index t (0 : Fin 3) = i)
    (X : S1x1x2048.Idx → EReal) (G : S2x1x2048.Idx → EReal)
    (h : ∀ q : Fin 2048, X (ix3 0 0 q) = G (ix3 (⟨i, hi⟩ : Fin 2) 0 q)) :
    (cfg0.win 3).cut (grid0.coords t) X = ((cfg0.win 3).blk t).view.read (Elt Ideal) G := by
  obtain ⟨e0, e1, e2⟩ := idx_facts3 t
  funext j
  have h0 : (j 0).val < 1 := (j 0).isLt
  have h1 : (j 1).val < 1 := (j 1).isLt
  have h2 : (j 2).val < 2048 := (j 2).isLt
  show X ((cfg0.win 3).xinj (grid0.coords t) j) = G (((cfg0.win 3).blk t).view.emb j)
  have hL : (cfg0.win 3).xinj (grid0.coords t) j = ix3 (0 : Fin 1) (0 : Fin 1) (⟨(j 2).val, h2⟩ : Fin 2048) := by
    funext a; apply Fin.ext
    match a with
    | ⟨0, _⟩ => show (j 0).val = 0; omega
    | ⟨1, _⟩ => show (j 1).val = 0; omega
    | ⟨2, _⟩ => rfl
  have hR : ((cfg0.win 3).blk t).view.emb j = ix3 (⟨i, hi⟩ : Fin 2) (0 : Fin 1) (⟨(j 2).val, h2⟩ : Fin 2048) := by
    funext a; apply Fin.ext
    match a with
    | ⟨0, _⟩ => show win0_3.index t (0 : Fin 3) * 1 + 1 * (j 0).val = i; omega
    | ⟨1, _⟩ => show win0_3.index t (1 : Fin 3) * 1 + 1 * (j 1).val = 0; omega
    | ⟨2, _⟩ => show win0_3.index t (2 : Fin 3) * 2048 + 1 * (j 2).val = (j 2).val; omega
  rw [hL, hR]
  exact h _

/-- An index of the array is in point `t`'s block iff each coordinate is in the block's range on its axis. -/
private theorem mem_blk3 (t : Fin cfg0.N) (i : S2x1x2048.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v2).slice (win0_3.rect t)).set ↔ _
  rw [View.set_slice_whole, Rect.mem_set_unit]
  exact Iff.rfl

/-- What a flushing point writes back is its block of the result array. -/
theorem flushed3_eq (c : Dev nD) (t : Fin cfg0.N) (hf : (cfg0.win 3).flush t = true) :
    (dats m 0 c).flushed 3 t = ((cfg0.win 3).blk t).view.read (Elt Ideal) (R m c) := by
  have hN : cfg0.N = 128 := N_0
  have h63 : t.val % 64 = 63 := (flush0_3 t).mp hf
  have hlt : t.val < 128 := lt_of_lt_of_eq t.isLt hN
  have hi : t.val / 64 < 2 := by omega
  have ht : t.val = (t.val / 64) * 64 + 63 := by omega
  have key : ∀ q : Fin 2048, (outsAt0 m c t.val t.isLt).1 (ix3 0 0 q) = R m c (ix3 (⟨t.val / 64, hi⟩ : Fin 2) 0 q) := by
    intro q
    rw [(Cert.KernelIdeal.Inv.inv m c t.val t.isLt (t.val / 64) 63 hi (by omega) ht q).2]
    exact Cert.Spec.runMax_full _ _ _ _
  show (cfg0.win 3).cut (grid0.coords t) ((dats m 0 c).after 3 t) = _
  rw [after0_3]
  exact cut_eq_read t (t.val / 64) hi (idx_facts3 t).1 _ _ key

/-- The result array after the run. -/
theorem final3 (c : Dev nD) : (dats m 0 c).arrAt 3 cfg0.N = R m c := by
  refine (dats m 0 c).arrAt_eq_of_cover 3 (R m c) (flushed3_eq m c) fun y => ?_
  have hN : cfg0.N = 128 := N_0
  have hy0 : (y 0).val < 2 := (y 0).isLt
  have hy1 : (y 1).val < 1 := (y 1).isLt
  have hy2 : (y 2).val < 2048 := (y 2).isLt
  have htN : (y 0).val * 64 + 63 < cfg0.N := by rw [hN]; omega
  obtain ⟨e0, e1, e2⟩ := idx_facts3 ⟨(y 0).val * 64 + 63, htN⟩
  have e0' : win0_3.index ⟨(y 0).val * 64 + 63, htN⟩ (0 : Fin 3) = (y 0).val := by
    rw [e0]; show ((y 0).val * 64 + 63) / 64 = (y 0).val; omega
  refine ⟨⟨(y 0).val * 64 + 63, htN⟩, (flush0_3 _).mpr (by show ((y 0).val * 64 + 63) % 64 = 63; omega), ?_⟩
  rw [mem_blk3]
  intro a
  match a with
  | ⟨0, _⟩ =>
    show win0_3.index ⟨(y 0).val * 64 + 63, htN⟩ (0 : Fin 3) * 1 ≤ (y 0).val
      ∧ (y 0).val < win0_3.index ⟨(y 0).val * 64 + 63, htN⟩ (0 : Fin 3) * 1 + 1
    omega
  | ⟨1, _⟩ =>
    show win0_3.index ⟨(y 0).val * 64 + 63, htN⟩ (1 : Fin 3) * 1 ≤ (y 1).val
      ∧ (y 1).val < win0_3.index ⟨(y 0).val * 64 + 63, htN⟩ (1 : Fin 3) * 1 + 1
    omega
  | ⟨2, _⟩ =>
    show win0_3.index ⟨(y 0).val * 64 + 63, htN⟩ (2 : Fin 3) * 2048 ≤ (y 2).val
      ∧ (y 2).val < win0_3.index ⟨(y 0).val * 64 + 63, htN⟩ (2 : Fin 3) * 2048 + 2048
    omega

end Cert.KernelIdeal.Final

end
-- ==== Proof.TailAt.lean ====
/-
  The host operation after the region: the [2, 1, 2048] result of the region re-laid as [4096, 1].  Row p of the
  result is entry p % 2048 of block p / 2048: the same row-major position.
-/
import proofs.«165458_g49898930045647_pilotgen1_419_2_alg».proof.KernelIdeal
import Idealize.ShloMosaic.Lib.ValueIdx
import Idealize.ShloMosaic.Lib.Pipeline.Value

noncomputable section

namespace Cert.KernelIdeal.Tail

open Cert.KernelIdeal Idealize.ShloMosaic Idealize.ShloMosaic.ValueIdx

/-- The reshape read at row p. -/
theorem reshape_apply (v : S2x1x2048.Idx → EReal) (h : S2x1x2048.ShapeCasts S4096x1) (p : Fin 4096) :
    shapeCast S4096x1 v h (ix2 p 0)
      = v (ix3 (⟨p.val / 2048, by have := p.isLt; omega⟩ : Fin 2) (0 : Fin 1) (⟨p.val % 2048, Nat.mod_lt _ (by norm_num)⟩ : Fin 2048)) := by
  refine shapeCast_apply v h (ix2 p 0) _ ?_
  rw [Shape.rowMajor_val_three, Shape.rowMajor_val_two]
  show ((p.val / 2048) * 1 + 0) * 2048 + p.val % 2048 = p.val * 1 + 0
  omega

end Cert.KernelIdeal.Tail

end
-- ==== Proof.KernelRun.lean ====
/-
  The idealized kernel's run, read: every execution ends with the result buffer holding the specification's array of
  the three arguments, and the arguments unchanged.  The region leaves the [2, 1, 2048] array of block maxima; the
  host operation after it re-lays that array as [4096, 1], row p taking entry p % 2048 of block p / 2048.
-/
import proofs.«165458_g49898930045647_pilotgen1_419_2_alg».proof.Proof.Final
import proofs.«165458_g49898930045647_pilotgen1_419_2_alg».proof.Proof.TailAt
import Idealize.ShloMosaic.Lib.StableHlo.Run

noncomputable section

namespace Cert.KernelIdeal.RunValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The re-laid array is the specification's: row p is the result at query row p. -/
theorem relaid (c : Dev nD) (h : S2x1x2048.ShapeCasts S4096x1) :
    shapeCast S4096x1 (Cert.KernelIdeal.Final.R m c) h
      = Cert.Spec.G (m ((c : Thread nD τ).loc main_arg0)) (m ((c : Thread nD τ).loc main_arg1)) (m ((c : Thread nD τ).loc main_arg2)) := by
  funext i
  obtain ⟨p, z, rfl⟩ : ∃ (p : Fin 4096) (z : Fin 1), i = ix2 p z := ⟨i 0, i 1, eq_ix2 i⟩
  obtain rfl : z = 0 := Subsingleton.elim _ _
  rw [Cert.KernelIdeal.Tail.reshape_apply]
  unfold Cert.KernelIdeal.Final.R Cert.Spec.G
  congr 1
  apply Fin.ext
  show p.val / 2048 * 2048 + p.val % 2048 = p.val
  omega

/-- The result buffer after the host operation that follows the region. -/
theorem tail_v3 (c : Dev nD) :
    Pipeline.afterTail₀ cfgs (dats m) 0 (V0 m) [hostOps1] c main_v3
      = Cert.Spec.G (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = Cert.KernelIdeal.Final.R m c :=
    (Pipeline.withArrays_arr spec0 launch0.win.arr_inj c _ _ 3).trans (Cert.KernelIdeal.Final.final3 m c)
  show shapeCast S4096x1 (Pipeline.withArrays (cfgs 0).spec c (V0 m c) (fun w => (dats m 0 c).arrAt w (cfgs 0).N)
      (Proc.devRef .tc main_v2)) _ = _
  rw [e]
  exact relaid m c _

/-- THE RUN: the result buffer at the specification's array of the arguments, the arguments unchanged. -/
theorem run : θ_run defs (onTc (τ := τ) (main (F := Ideal))) ⟨m, fun _ => 0, ρ⟩ (fun r => ∀ c : Dev nD,
      r.2.mem ((c : Thread nD τ).loc main_v3)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.RefIsSpec.lean ====
/-
  The reference program's result, read one operation at a time, is the specification: at query row p it is the
  largest score over all stored rows.
-/
import proofs.«165458_g49898930045647_pilotgen1_419_2_alg».proof.Proof.Gen.ReferenceIdeal.Read
import proofs.«165458_g49898930045647_pilotgen1_419_2_alg».proof.Proof.SpecLaws
import Idealize.ShloMosaic.PureOps.Ideal.Laws
import Idealize.ShloMosaic.Lib.ValueIdx
import Idealize.ShloMosaic.Lib.Pipeline.Value

noncomputable section

namespace Cert.RefValue

open Cert.ReferenceIdeal Cert.ReferenceIdeal.Gen Idealize.ShloMosaic Idealize.ShloMosaic.ValueIdx

open Cert.ReferenceIdeal.Read in
/-- The reference's score stage at (n, p) is the score of stored row `n` against query row `p`, grouped as the
    reference groups it. -/
private theorem v20_at (x0 : (⟨S4096x3072, .f32⟩ : BufTy).Contents (Elt Ideal)) (x1 : (⟨S32768x3072, .f32⟩ : BufTy).Contents (Elt Ideal))
    (x2 : (⟨S32768x1, .f32⟩ : BufTy).Contents (Elt Ideal)) (n : Fin 32768) (p : Fin 4096) :
    Read.val_main_v20 (F := Ideal) x0 x1 x2 (ix2 n p)
      = Cert.Spec.scoreRef (fun n d => x1 (ix2 n d)) (fun p d => x0 (ix2 p d)) (fun n => x2 (ix2 n 0)) n p := by
  rw [val_main_v20_apply, val_main_v18_apply, val_main_v19_apply, val_main_v17_apply, val_main_v16_apply, val_main_v15_apply,
    val_main_v14_apply, val_main_v12_apply, val_main_v13_apply, val_main_v11_apply, val_main_v10_apply, val_main_v9_apply,
    val_main_v8_apply, val_main_v6_apply, val_main_v5_apply, val_main_v4_apply, val_main_v2_apply, val_main_v1_apply,
    val_main_cst_2_apply, val_main_cst_1_apply, val_main_cst_0_apply, val_main_cst_apply]
  have e1 : ∀ k : Fin 3072, idx_main_v1 (idx_main_v2 (idx_main_v11 (ix2 n p))) k = ix2 n k := fun k =>
    funext fun a => Fin.ext (by match a with | ⟨0, _⟩ => rfl | ⟨1, _⟩ => rfl)
  have e2 : ∀ k : Fin 3072, lidx_main_v8 (ix2 n p) k = ix2 n k := fun k =>
    funext fun a => Fin.ext (by match a with | ⟨0, _⟩ => rfl | ⟨1, _⟩ => rfl)
  have e3 : ∀ k : Fin 3072, idx_main_v7 (ridx_main_v8 (ix2 n p) k) = ix2 p k := fun k =>
    funext fun a => Fin.ext (by match a with | ⟨0, _⟩ => rfl | ⟨1, _⟩ => rfl)
  have e4 : ∀ k : Fin 3072, idx_main_v4 (idx_main_v5 (idx_main_v6 (idx_main_v13 (ix2 n p)))) k = ix2 p k := fun k =>
    funext fun a => Fin.ext (by match a with | ⟨0, _⟩ => rfl | ⟨1, _⟩ => rfl)
  have e5 : idx_main_v19 (ix2 n p) = ix2 n (0 : Fin 1) :=
    funext fun a => Fin.ext (by match a with | ⟨0, _⟩ => rfl | ⟨1, _⟩ => rfl)
  simp only [val_main_v0_apply, val_main_v7_apply, val_main_v3_apply, e1, e2, e3, e4, e5]
  simp only [Ideal.mulf_def, Ideal.addf_def, Ideal.subf_def, Ideal.hostAbsf_def, Ideal.absf_def, Ideal.hostUnary_sqrt_def,
    Ideal.ofBits_def, Ideal.ofBits_zero_f32, zero_add]
  rfl

/-- The reduced index `p` with row `k` put back is (k, p). -/
private theorem lift_ix2 (h : S32768x4096.Reduces [0] S4096) (p : Fin 4096) (k : Fin (S32768x4096.size 0)) :
    h.lift (ix1 p) k = ix2 (⟨k.val, k.isLt⟩ : Fin 32768) p := by
  funext c; apply Fin.ext
  fin_cases c <;> rfl

/-- The reference's last stage is the specification's array. -/
theorem ref_eq (x0 : (⟨S4096x3072, .f32⟩ : BufTy).Contents (Elt Ideal)) (x1 : (⟨S32768x3072, .f32⟩ : BufTy).Contents (Elt Ideal))
    (x2 : (⟨S32768x1, .f32⟩ : BufTy).Contents (Elt Ideal)) :
    Cert.ReferenceIdeal.Read.val_main_v22 (F := Ideal) x0 x1 x2 = Cert.Spec.G x0 x1 x2 := by
  funext i
  obtain ⟨p, z, rfl⟩ : ∃ (p : Fin 4096) (z : Fin 1), i = ix2 p z := ⟨i 0, i 1, eq_ix2 i⟩
  obtain rfl : z = 0 := Subsingleton.elim _ _
  rw [Read.val_main_v22_apply]
  have hidx : Read.idx_main_v22 (ix2 p (0 : Fin 1)) = ix1 p := funext fun a => Fin.ext (by match a with | ⟨0, _⟩ => rfl)
  rw [hidx]
  unfold Read.val_main_v21
  have hR : S32768x4096.Reduces [0] S4096 := by decide
  rw [Host.reduce_eq_fold_single FloatOps.maximumf _ _ reducesTo_S32768x4096_S4096_d0 hR h_S_]
  have hf : (Read.val_main_v20 (F := Ideal) x0 x1 x2 ∘ hR.lift (ix1 p))
      = fun n : Fin 32768 => Cert.Spec.score (fun n d => x1 (ix2 n d)) (fun p d => x0 (ix2 p d)) (fun n => x2 (ix2 n 0)) n p :=
    funext fun k => (congrArg (Read.val_main_v20 (F := Ideal) x0 x1 x2) (lift_ix2 hR p k)).trans
      ((v20_at x0 x1 x2 ⟨k.val, k.isLt⟩ p).trans (Cert.Spec.scoreRef_eq _ _ _ _ _))
  rw [hf]
  exact Cert.Spec.fold_max_eq_sup Finset.univ _

end Cert.RefValue

end
-- ==== Proof.lean ====
/-
  A nearest-neighbour score on the extended reals: for every query row p, the largest over all stored rows n of
      w n - 10 * sqrt | (|x n|^2 + |y p|^2) - 2 * <x n, y p> |.
  The kernel works over a 2 x 64 grid of (query-row block, stored-row block): at the first stored-row block of a
  query-row block it records the squared lengths of the block's query rows and starts the block's maxima at
  -infinity, and at every point it joins the largest score of its 512 stored rows to the running maxima; the
  [2, 1, 2048] array of maxima is then re-laid as [4096, 1].  The reference forms all 32768 x 4096 scores at once,
  grouped as ((|x n|^2 - 2 <x n, y p>) + |y p|^2) and (-10) * sqrt|..| + w n, and takes one maximum over n.

  The two agree on every extended real: the two groupings differ only by commutativity and associativity of
  addition and the sign rule of a product, a change of float format is the identity, the matrix product into a
  zero accumulator and the host's contraction are the same sum, and a maximum taken block by block from
  -infinity is the maximum over all rows.  Finiteness of the inputs is never used.

  The frames of the two kernel programs are the generated frame runs; the reference's frame is its generated run
  with the result dropped.  The idealization rewrote nothing, so its preservation claim is trivial.  The value
  claim puts the kernel's run (its result buffer at the specification's array) beside the reference's run (its
  result at the last stage of its operations, which is the same array).
-/
import proofs.«165458_g49898930045647_pilotgen1_419_2_alg».proof.Defs
import proofs.«165458_g49898930045647_pilotgen1_419_2_alg».proof.Proof.Gen.Kernel
import proofs.«165458_g49898930045647_pilotgen1_419_2_alg».proof.Proof.Gen.Kernel.Skeleton
import proofs.«165458_g49898930045647_pilotgen1_419_2_alg».proof.Proof.Gen.Kernel.Launch
import proofs.«165458_g49898930045647_pilotgen1_419_2_alg».proof.Proof.Gen.Kernel.Points
import proofs.«165458_g49898930045647_pilotgen1_419_2_alg».proof.Proof.Gen.Kernel.Frame
import proofs.«165458_g49898930045647_pilotgen1_419_2_alg».proof.Proof.Gen.KernelIdeal
import proofs.«165458_g49898930045647_pilotgen1_419_2_alg».proof.Proof.Gen.KernelIdeal.Skeleton
import proofs.«165458_g49898930045647_pilotgen1_419_2_alg».proof.Proof.Gen.KernelIdeal.Launch
import proofs.«165458_g49898930045647_pilotgen1_419_2_alg».proof.Proof.Gen.KernelIdeal.Points
import proofs.«165458_g49898930045647_pilotgen1_419_2_alg».proof.Proof.Gen.KernelIdeal.Frame
import proofs.«165458_g49898930045647_pilotgen1_419_2_alg».proof.Proof.Gen.ReferenceIdeal
import proofs.«165458_g49898930045647_pilotgen1_419_2_alg».proof.Proof.Gen.Pre_finite_inputs
import proofs.«165458_g49898930045647_pilotgen1_419_2_alg».proof.Proof.Gen.ReferenceIdeal.Read
import proofs.«165458_g49898930045647_pilotgen1_419_2_alg».proof.Proof.KernelRun
import proofs.«165458_g49898930045647_pilotgen1_419_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's array of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
